-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x256 : Shape := ⟨3, ![32768, 1, 256]⟩
abbrev S32768x32x256 : Shape := ⟨3, ![32768, 32, 256]⟩
abbrev S_ : Shape := ⟨0, ![]⟩

class Facts : Prop where
  bcast_S_S32768x1x256 : S_.BroadcastsInDim S32768x1x256 (![] : Fin 0 → Fin S32768x1x256.rank)
  reducesTo_S32768x1x256_S_d0_1_2 : S32768x1x256.ReducesTo [0, 1, 2] S_
  h_S_ : 0 < S_.numel
  bcast_S_S32768x32x256 : S_.BroadcastsInDim S32768x32x256 (![] : Fin 0 → Fin S32768x32x256.rank)
  reducesTo_S32768x32x256_S_d0_1_2 : S32768x32x256.ReducesTo [0, 1, 2] S_

variable [Facts]

def fn {F : FTy → Type} [FloatOps F] (main_arg0 : FVec F S32768x1x256 .f32) (main_arg1 : FVec F S32768x32x256 .f32) : IVec S_ 1 :=
  let main_v0 : FVec F S32768x1x256 .f32 := Host.absf main_arg0
  let main_cst : FVec F S_ .f32 := constant S_ .f32 0x7F800000#32
  let main_v1 : FVec F S32768x1x256 .f32 := broadcastInDim S32768x1x256 ![] bcast_S_S32768x1x256 main_cst
  let main_v2 : IVec S32768x1x256 1 := cmpf .olt main_v0 main_v1
  let main_c : IVec S_ 1 := constantI S_ 1 1#1
  let main_v3 : IVec S_ 1 := (fun x v => Host.reduce IntOp.andi x v reducesTo_S32768x1x256_S_d0_1_2 h_S_) main_v2 main_c
  let main_v4 : FVec F S32768x32x256 .f32 := Host.absf main_arg1
  let main_cst_0 : FVec F S_ .f32 := constant S_ .f32 0x7F800000#32
  let main_v5 : FVec F S32768x32x256 .f32 := broadcastInDim S32768x32x256 ![] bcast_S_S32768x32x256 main_cst_0
  let main_v6 : IVec S32768x32x256 1 := cmpf .olt main_v4 main_v5
  let main_c_1 : IVec S_ 1 := constantI S_ 1 1#1
  let main_v7 : IVec S_ 1 := (fun x v => Host.reduce IntOp.andi x v reducesTo_S32768x32x256_S_d0_1_2 h_S_) main_v6 main_c_1
  let main_v8 : IVec S_ 1 := andi main_v3 main_v7
  main_v8
-- ==== Kernel.lean ====
abbrev S32768x1x256 : Shape := ⟨3, ![32768, 1, 256]⟩
abbrev S32768x32x256 : Shape := ⟨3, ![32768, 32, 256]⟩
abbrev S32768x256 : Shape := ⟨2, ![32768, 256]⟩
abbrev S512x256 : Shape := ⟨2, ![512, 256]⟩
abbrev S512x32x256 : Shape := ⟨3, ![512, 32, 256]⟩
abbrev S512x8x256 : Shape := ⟨3, ![512, 8, 256]⟩
abbrev S512x1x256 : Shape := ⟨3, ![512, 1, 256]⟩
abbrev S512x8 : Shape := ⟨2, ![512, 8]⟩
abbrev S512x32 : Shape := ⟨2, ![512, 32]⟩
abbrev S512 : Shape := ⟨1, ![512]⟩
abbrev S512x1 : Shape := ⟨2, ![512, 1]⟩
abbrev S512x8x1 : Shape := ⟨3, ![512, 8, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x1x256, .f32⟩
  | .hbm, ⟨1, _⟩ => ⟨S32768x32x256, .f32⟩
  | .hbm, ⟨2, _⟩ => ⟨S32768x256, .f32⟩
  | .hbm, ⟨3, _⟩ => ⟨S32768x256, .f32⟩
  | .hbm, ⟨4, _⟩ => ⟨S32768x1x256, .f32⟩
  | .local _ .vmem, ⟨0, _⟩ => ⟨S512x256, .f32⟩
  | .local _ .vmem, ⟨1, _⟩ => ⟨S512x256, .f32⟩
  | .local _ .vmem, ⟨2, _⟩ => ⟨S512x32x256, .f32⟩
  | .local _ .vmem, ⟨3, _⟩ => ⟨S512x32x256, .f32⟩
  | .local _ .vmem, ⟨4, _⟩ => ⟨S512x256, .f32⟩
  | .local _ .vmem, ⟨5, _⟩ => ⟨S512x256, .f32⟩
  | _, _ => ⟨S32768x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x1x256_S32768x256 : S32768x1x256.ShapeCasts S32768x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x32x256_S512x8x256_0_0_0 : ∀ a, (![0, 0, 0] : Fin 3 → Nat) a + S512x8x256.size a ≤ S512x32x256.size a
  h_S512x8x256 : 0 < S512x8x256.numel
  shapeCasts_S512x256_S512x1x256 : S512x256.ShapeCasts S512x1x256
  broadcasts_S512x1x256_S512x8x256 : S512x1x256.Broadcasts S512x8x256
  reduces_S512x8x256_S512x8 : S512x8x256.Reduces [2] S512x8
  inb_S512x32x256_S512x8x256_0_8_0 : ∀ a, (![0, 8, 0] : Fin 3 → Nat) a + S512x8x256.size a ≤ S512x32x256.size a
  inb_S512x32x256_S512x8x256_0_16_0 : ∀ a, (![0, 16, 0] : Fin 3 → Nat) a + S512x8x256.size a ≤ S512x32x256.size a
  inb_S512x32x256_S512x8x256_0_24_0 : ∀ a, (![0, 24, 0] : Fin 3 → Nat) a + S512x8x256.size a ≤ S512x32x256.size a
  concatenates_S512x8_S512x8_S512x8_S512x8_S512x32_d1 : Shape.Concatenates [S512x8, S512x8, S512x8, S512x8] S512x32 1
  reduces_S512x32_S512 : S512x32.Reduces [1] S512
  shapeCasts_S512_S512x1 : S512.ShapeCasts S512x1
  broadcasts_S512x1_S512x32 : S512x1.Broadcasts S512x32
  slices_S512x32_o0_0_S512x8 : S512x32.Slices ![0, 0] S512x8
  shapeCasts_S512x8_S512x8x1 : S512x8.ShapeCasts S512x8x1
  broadcasts_S512x8x1_S512x8x256 : S512x8x1.Broadcasts S512x8x256
  reduces_S512x8x256_S512x256 : S512x8x256.Reduces [1] S512x256
  slices_S512x32_o0_8_S512x8 : S512x32.Slices ![0, 8] S512x8
  slices_S512x32_o0_16_S512x8 : S512x32.Slices ![0, 16] S512x8
  slices_S512x32_o0_24_S512x8 : S512x32.Slices ![0, 24] S512x8
  shapeCasts_S32768x256_S32768x1x256 : S32768x256.ShapeCasts S32768x1x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x256.size a ≤ S32768x32x256.size a
  hwx0_1 : ∀ i : grid0.Coords, EltTy.bits .f32 = 32 ∨ (Rect.block (s := S32768x32x256) S512x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S32768x256.size a
  hwx0_2 : ∀ i : grid0.Coords, EltTy.bits .f32 = 32 ∨ (Rect.block (s := S32768x256) S512x256.size (cc0_transform_2 i) (hinb0_2 i)).WholeWords (EltTy.packing .f32)

variable [Facts₀]

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1x256 : Shape := ⟨3, ![32768, 1, 256]⟩
abbrev S32768x32x256 : Shape := ⟨3, ![32768, 32, 256]⟩
abbrev S32768x1x32 : Shape := ⟨3, ![32768, 1, 32]⟩
abbrev S_ : Shape := ⟨0, ![]⟩
abbrev S32768x1 : Shape := ⟨2, ![32768, 1]⟩
abbrev S32768x1x1 : Shape := ⟨3, ![32768, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x1x256, .f32⟩
  | .hbm, ⟨1, _⟩ => ⟨S32768x32x256, .f32⟩
  | .hbm, ⟨2, _⟩ => ⟨S32768x1x32, .f32⟩
  | .hbm, ⟨3, _⟩ => ⟨S_, .f32⟩
  | .hbm, ⟨4, _⟩ => ⟨S32768x1x32, .f32⟩
  | .hbm, ⟨5, _⟩ => ⟨S32768x1x32, .f32⟩
  | .hbm, ⟨6, _⟩ => ⟨S_, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S32768x1x1, .f32⟩
  | .hbm, ⟨12, _⟩ => ⟨S32768x1x32, .f32⟩
  | .hbm, ⟨13, _⟩ => ⟨S32768x1x32, .f32⟩
  | .hbm, ⟨14, _⟩ => ⟨S32768x1x32, .f32⟩
  | .hbm, ⟨15, _⟩ => ⟨S_, .f32⟩
  | .hbm, ⟨16, _⟩ => ⟨S32768x1, .f32⟩
  | .hbm, ⟨17, _⟩ => ⟨S32768x1x1, .f32⟩
  | .hbm, ⟨18, _⟩ => ⟨S32768x1x32, .f32⟩
  | .hbm, ⟨19, _⟩ => ⟨S32768x1x32, .f32⟩
  | .hbm, ⟨20, _⟩ => ⟨S32768x1x256, .f32⟩
  | .hbm, ⟨21, _⟩ => ⟨S32768x1x256, .f32⟩
  | _, _ => ⟨S32768x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S32768x1x32 : S_.BroadcastsInDim S32768x1x32 (![] : Fin 0 → Fin S32768x1x32.rank)
  reducesTo_S32768x1x32_S32768x1_d2 : S32768x1x32.ReducesTo [2] S32768x1
  h_S_ : 0 < S_.numel
  bcast_S_S32768x1 : S_.BroadcastsInDim S32768x1 (![] : Fin 0 → Fin S32768x1.rank)
  bcast_S32768x1_S32768x1x1_0_1 : S32768x1.BroadcastsInDim S32768x1x1 (![0, 1] : Fin 2 → Fin S32768x1x1.rank)
  bcast_S32768x1x1_S32768x1x32_0_1_2 : S32768x1x1.BroadcastsInDim S32768x1x32 (![0, 1, 2] : Fin 3 → Fin S32768x1x32.rank)
  dot_S32768x1x256_S32768x32x256_S32768x1x32_2_2_1_1_0_0_wf : DotDims.WF S32768x1x256 S32768x32x256 S32768x1x32 [2] [2] [1] [1] [0] [0]
  dot_S32768x1x32_S32768x32x256_S32768x1x256_2_1_1_2_0_0_wf : DotDims.WF S32768x1x32 S32768x32x256 S32768x1x256 [2] [1] [1] [2] [0] [0]

variable [Facts₀]

def dot_S32768x1x256_S32768x32x256_S32768x1x32_2_2_1_1_0_0 : DotDims S32768x1x256 S32768x32x256 S32768x1x32 where
  lhsContracting := [2]
  rhsContracting := [2]
  lhsNonContracting := [1]
  rhsNonContracting := [1]
  lhsBatch := [0]
  rhsBatch := [0]
  wf := dot_S32768x1x256_S32768x32x256_S32768x1x32_2_2_1_1_0_0_wf
def dot_S32768x1x32_S32768x32x256_S32768x1x256_2_1_1_2_0_0 : DotDims S32768x1x32 S32768x32x256 S32768x1x256 where
  lhsContracting := [2]
  rhsContracting := [1]
  lhsNonContracting := [1]
  rhsNonContracting := [2]
  lhsBatch := [0]
  rhsBatch := [0]
  wf := dot_S32768x1x32_S32768x32x256_S32768x1x256_2_1_1_2_0_0_wf

class Facts : Prop extends Facts₀ where

variable [Facts]
-- ==== Proof.Row.lean ====
/-
  One row of the attention both programs compute, as a function on the extended reals.

  A row has one query vector `Q : Fin 256 → EReal` and 32 neighbour vectors `K k : Fin 256 → EReal`.
  The score of neighbour `k` is the inner product `∑ c, Q c * K k c` times the scale `s`; the
  weights are `exp (score k - peak)`, where `peak` is the largest score (a fold of `max` from the
  starting value `b`); each weight is divided by the sum of all 32 weights; and the row's result at channel
  `c` is `Q c` plus the sum over the neighbours of the normalised weight times `K k c`.

  Two small laws are proved beside the definition. A sum over the 32 neighbours is the sum of four sums over
  eight consecutive neighbours, added one after the other onto zero (addition of extended reals is commutative
  and associative, and `0 + x = x`; no finiteness is used). And a maximum folded from `b` is at least `b`,
  so taking the maximum with `b` once more changes nothing.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale of the scores (the f32 word of 1/16) and the value the maximum starts from (the f32 word of -∞), as
    extended reals. Neither is ever evaluated: both programs carry the same two words. -/
abbrev scale : EReal := Ideal.ofBits .f32 0x3D800000#32
abbrev floor : EReal := Ideal.ofBits .f32 0xFF800000#32

/-- Neighbour number `8 j + kk`: place `kk` of the `j`-th group of eight. -/
def slot (j : Fin 4) (kk : Fin 8) : Fin 32 := ⟨8 * j.val + kk.val, by omega⟩

theorem slot_val (j : Fin 4) (kk : Fin 8) : (slot j kk).val = 8 * j.val + kk.val := rfl

/-- The scaled inner product of the query with neighbour `k`. -/
def score (s : EReal) (Q : Fin 256 → EReal) (K : Fin 32 → Fin 256 → EReal) (k : Fin 32) : EReal :=
  (∑ c : Fin 256, Q c * K k c) * s

/-- The largest of the 32 scores, folded from `b`. -/
def peak (b : EReal) (sc : Fin 32 → EReal) : EReal := (Finset.univ : Finset (Fin 32)).fold max b sc

/-- The unnormalised weight of neighbour `k`. -/
def weight (b : EReal) (sc : Fin 32 → EReal) (k : Fin 32) : EReal := Ideal.exp (sc k - peak b sc)

/-- The sum of the 32 weights. -/
def total (b : EReal) (sc : Fin 32 → EReal) : EReal := ∑ k : Fin 32, weight b sc k

/-- The normalised weight of neighbour `k`. -/
def share (b : EReal) (sc : Fin 32 → EReal) (k : Fin 32) : EReal := Ideal.div (weight b sc k) (total b sc)

/-- The row's result at channel `c`. -/
def row (s b : EReal) (Q : Fin 256 → EReal) (K : Fin 32 → Fin 256 → EReal) (c : Fin 256) : EReal :=
  Q c + ∑ k : Fin 32, share b (score s Q K) k * K k c

/-- A sum over 32 neighbours is four sums over eight, added in order onto zero. -/
theorem sum_slots {M : Type*} [AddCommMonoid M] (f : Fin 32 → M) :
    ∑ k : Fin 32, f k
      = (((0 + ∑ kk : Fin 8, f (slot 0 kk)) + ∑ kk : Fin 8, f (slot 1 kk)) + ∑ kk : Fin 8, f (slot 2 kk))
          + ∑ kk : Fin 8, f (slot 3 kk) := by
  have e : ∑ k : Fin 32, f k = ∑ p : Fin 4 × Fin 8, f (slot p.1 p.2) := by
    rw [← Equiv.sum_comp (finProdFinEquiv : Fin 4 × Fin 8 ≃ Fin 32) f]
    refine Finset.sum_congr rfl fun p _ => congrArg f (Fin.ext ?_)
    show p.2.val + 8 * p.1.val = 8 * p.1.val + p.2.val
    omega
  rw [e, Fintype.sum_prod_type, Fin.sum_univ_four, zero_add]

/-- A maximum folded from `b` absorbs one more `b`. -/
theorem max_peak (b : EReal) (sc : Fin 32 → EReal) : max b (peak b sc) = peak b sc :=
  max_eq_right ((Finset.le_fold_max b).mpr (Or.inl le_rfl))

/-- Every neighbour is some place of some group of eight. -/
theorem exists_slot (k : Fin 32) : ∃ (j : Fin 4) (kk : Fin 8), k = slot j kk :=
  ⟨⟨k.val / 8, by omega⟩, ⟨k.val % 8, by omega⟩, Fin.ext (by show k.val = 8 * (k.val / 8) + k.val % 8; omega)⟩

/-! ## The whole result array -/

/-- The result array [32768,1,256] as one function of the query array [32768,1,256] and the neighbour array
    [32768,32,256]: entry (n, 0, c) is channel `c` of the attention row built from row `n` of each. -/
def whole (s b : EReal) (q : (⟨3, ![32768, 1, 256]⟩ : Shape).Idx → EReal) (key : (⟨3, ![32768, 32, 256]⟩ : Shape).Idx → EReal) :
    (⟨3, ![32768, 1, 256]⟩ : Shape).Idx → EReal :=
  fun i => row s b (fun c => q (ix3 (⟨(i 0).val, (i 0).isLt⟩ : Fin 32768) (0 : Fin 1) c))
    (fun k c => key (ix3 (⟨(i 0).val, (i 0).isLt⟩ : Fin 32768) k c)) (⟨(i 2).val, (i 2).isLt⟩ : Fin 256)

theorem whole_apply (s b : EReal) (q : (⟨3, ![32768, 1, 256]⟩ : Shape).Idx → EReal) (key : (⟨3, ![32768, 32, 256]⟩ : Shape).Idx → EReal)
    (n : Fin 32768) (c : Fin 256) :
    whole s b q key (ix3 n (0 : Fin 1) c) = row s b (fun c' => q (ix3 n (0 : Fin 1) c')) (fun k c' => key (ix3 n k c')) c := rfl

/-- Every index of the result array is (n, 0, c). -/
theorem exists_ix3 (i : (⟨3, ![32768, 1, 256]⟩ : Shape).Idx) : ∃ (n : Fin 32768) (c : Fin 256), i = ix3 n (0 : Fin 1) c :=
  ⟨⟨(i 0).val, (i 0).isLt⟩, ⟨(i 2).val, (i 2).isLt⟩, funext fun a => by
    match a with
    | ⟨0, _⟩ => rfl
    | ⟨1, _⟩ => exact Fin.ext (by have h : (i 1).val < 1 := (i 1).isLt; show (i 1).val = 0; omega)
    | ⟨2, _⟩ => rfl⟩

end Cert.Attn

end
-- ==== Proof.Layout.lean ====
/-
  The kernel body's layout operations and reductions, each read at one index of a block of 512 rows.

  Row `r` of a block holds one query vector (256 channels) and 32 neighbour vectors, which the body handles in
  four groups of eight. Every operation below rearranges or reduces such a block without mixing rows:
  the query row copied along the eight neighbours of a group; a per-row number copied along a row; a per-neighbour
  number copied along the channels; a group of eight cut out of the 32; four groups of eight put side by side;
  and the sums over the channels, over a group's eight neighbours and over all 32 neighbours, and the maximum over all 32.
-/
import proofs.«103626_j28819230556612_2_alg».proof.KernelIdeal
import proofs.«103626_j28819230556612_2_alg».proof.Proof.Row
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Idealize.ShloMosaic Idealize.ShloMosaic.ValueIdx Cert.KernelIdeal Cert.Attn

variable {α : Type}

/-- The query block seen as [512,1,256] and copied along eight neighbours: at (r, kk, c) it is the block at (r, c). -/
theorem queryAlong_apply (x : S512x256.Idx → α) (h1 : S512x256.ShapeCasts S512x1x256) (h2 : S512x1x256.Broadcasts S512x8x256)
    (r : Fin 512) (kk : Fin 8) (c : Fin 256) :
    broadcastTo S512x8x256 (shapeCast S512x1x256 x h1) h2 (ix3 r kk c) = x (ix2 r c) := by
  refine (broadcastTo_apply _ h2 (ix3 r kk c) (ix3 r (0 : Fin 1) c) (fun a => match a with
    | ⟨0, _⟩ => by show r.val = if (512 : Nat) = 1 then 0 else r.val; rw [if_neg (by decide)]
    | ⟨1, _⟩ => by show 0 = if (1 : Nat) = 1 then 0 else kk.val; rw [if_pos rfl]
    | ⟨2, _⟩ => by show c.val = if (256 : Nat) = 1 then 0 else c.val; rw [if_neg (by decide)])).trans ?_
  exact shapeCast_apply x h1 (ix3 r (0 : Fin 1) c) (ix2 r c) (by
    rw [Shape.rowMajor_val_two, Shape.rowMajor_val_three]
    show r.val * 256 + c.val = (r.val * 1 + 0) * 256 + c.val
    omega)

/-- A number per row, seen as a column [512,1] and copied along the 32 neighbours: at (r, k) it is the number of row r. -/
theorem perRow_apply (v : S512.Idx → α) (h1 : S512.ShapeCasts S512x1) (h2 : S512x1.Broadcasts S512x32)
    (r : Fin 512) (k : Fin 32) :
    broadcastTo S512x32 (shapeCast S512x1 v h1) h2 (ix2 r k) = v (ix1 r) := by
  refine (broadcastTo_apply _ h2 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])).trans ?_
  exact shapeCast_apply v h1 (ix2 r (0 : Fin 1)) (ix1 r) (by
    rw [Shape.rowMajor_val_one, Shape.rowMajor_val_two]
    show r.val = r.val * 1 + 0
    omega)

/-- A number per neighbour of a group, seen as [512,8,1] and copied along the channels: at (r, kk, c) it is the number at (r, kk). -/
theorem perNeighbour_apply (w : S512x8.Idx → α) (h1 : S512x8.ShapeCasts S512x8x1) (h2 : S512x8x1.Broadcasts S512x8x256)
    (r : Fin 512) (kk : Fin 8) (c : Fin 256) :
    broadcastTo S512x8x256 (shapeCast S512x8x1 w h1) h2 (ix3 r kk c) = w (ix2 r kk) := by
  refine (broadcastTo_apply _ h2 (ix3 r kk c) (ix3 r kk (0 : Fin 1)) (fun a => match a with
    | ⟨0, _⟩ => by show r.val = if (512 : Nat) = 1 then 0 else r.val; rw [if_neg (by decide)]
    | ⟨1, _⟩ => by show kk.val = if (8 : Nat) = 1 then 0 else kk.val; rw [if_neg (by decide)]
    | ⟨2, _⟩ => by show 0 = if (1 : Nat) = 1 then 0 else c.val; rw [if_pos rfl])).trans ?_
  exact shapeCast_apply w h1 (ix3 r kk (0 : Fin 1)) (ix2 r kk) (by
    rw [Shape.rowMajor_val_two, Shape.rowMajor_val_three]
    show r.val * 8 + kk.val = (r.val * 8 + kk.val) * 1 + 0
    omega)

/-- Group `j` cut out of the 32 neighbours (columns from `off = 8 j`): at (r, kk) it is the whole at (r, 8 j + kk). -/
theorem group_apply (w : S512x32.Idx → α) (off : Nat) (h : S512x32.Slices ![0, off] S512x8) (r : Fin 512) (j : Fin 4) (kk : Fin 8)
    (hoff : off = 8 * j.val) :
    extractStridedSlice S512x8 ![0, off] w h (ix2 r kk) = w (ix2 r (slot j kk)) :=
  slice2_axis1_apply off w h r kk (slot j kk) (by rw [slot_val, hoff])

/-- Four groups of eight side by side: at (r, 8 j + kk) the result is group `j` at (r, kk). -/
theorem sideBySide_apply (p0 p1 p2 p3 : S512x8.Idx → α)
    (h : Shape.Concatenates [S512x8, S512x8, S512x8, S512x8] S512x32 1) (r : Fin 512) (j : Fin 4) (kk : Fin 8) :
    concatenate S512x32 1 [⟨S512x8, p0⟩, ⟨S512x8, p1⟩, ⟨S512x8, p2⟩, ⟨S512x8, p3⟩] h (ix2 r (slot j kk))
      = (![p0, p1, p2, p3] j) (ix2 r kk) := by
  have hi : ∀ (k : Fin 32) (b : Fin S512x8.rank), b.cast (rfl : S512x8.rank = S512x32.rank) ≠ (1 : Fin S512x32.rank) →
      ((ix2 r kk : S512x8.Idx) b).val = ((ix2 r k : S512x32.Idx) (b.cast rfl)).val := fun k b hb => by
    match b with
    | ⟨0, _⟩ => rfl
    | ⟨1, _⟩ => exact absurd rfl hb
  have hlen : ∀ n : Nat, n < 4 → n < ([⟨S512x8, p0⟩, ⟨S512x8, p1⟩, ⟨S512x8, p2⟩, ⟨S512x8, p3⟩] : List ((s : Shape) × (s.Idx → α))).length := fun n hn => hn
  match j with
  | ⟨0, _⟩ => exact concatenate_apply_piece 1 [⟨S512x8, p0⟩, ⟨S512x8, p1⟩, ⟨S512x8, p2⟩, ⟨S512x8, p3⟩] h _ 0 (hlen 0 (by omega)) S512x8 p0 rfl rfl 0 rfl (ix2 r kk) (hi _) (by show 0 + kk.val = 8 * 0 + kk.val; omega)
  | ⟨1, _⟩ => exact concatenate_apply_piece 1 [⟨S512x8, p0⟩, ⟨S512x8, p1⟩, ⟨S512x8, p2⟩, ⟨S512x8, p3⟩] h _ 1 (hlen 1 (by omega)) S512x8 p1 rfl rfl 8 rfl (ix2 r kk) (hi _) (by show 8 + kk.val = 8 * 1 + kk.val; omega)
  | ⟨2, _⟩ => exact concatenate_apply_piece 1 [⟨S512x8, p0⟩, ⟨S512x8, p1⟩, ⟨S512x8, p2⟩, ⟨S512x8, p3⟩] h _ 2 (hlen 2 (by omega)) S512x8 p2 rfl rfl 16 rfl (ix2 r kk) (hi _) (by show 16 + kk.val = 8 * 2 + kk.val; omega)
  | ⟨3, _⟩ => exact concatenate_apply_piece 1 [⟨S512x8, p0⟩, ⟨S512x8, p1⟩, ⟨S512x8, p2⟩, ⟨S512x8, p3⟩] h _ 3 (hlen 3 (by omega)) S512x8 p3 rfl rfl 24 rfl (ix2 r kk) (hi _) (by show 24 + kk.val = 8 * 3 + kk.val; omega)
  | ⟨n + 4, hn⟩ => exact absurd hn (by omega)

/-! ## The reductions, at the extended reals -/

/-- The sum over the 256 channels of a [512,8,256] block, at (r, kk). -/
theorem sumChannels_apply (src : FVec Ideal S512x8x256 .f32) (h : S512x8x256.Reduces [2] S512x8) (hφ : FKind.Formats .f32)
    (hacc : (0x00000000#32 : BitVec 32) = FKind.add.neutral .f32 hφ) (r : Fin 512) (kk : Fin 8) :
    multiReduction .add [2] S512x8 src 0x00000000#32 h hφ hacc (ix2 r kk) = ∑ c : Fin 256, src (ix3 r kk c) := by
  refine (Ideal.multiReduction_add_single src _ h hφ hacc (ix2 r kk)).trans ?_
  exact Finset.sum_congr rfl fun c _ => congrArg src (funext fun a => Fin.ext (by
    match a with
    | ⟨0, _⟩ => rfl
    | ⟨1, _⟩ => rfl
    | ⟨2, _⟩ => rfl))

/-- The sum over a group's eight neighbours of a [512,8,256] block, at (r, c). -/
theorem sumGroup_apply (src : FVec Ideal S512x8x256 .f32) (h : S512x8x256.Reduces [1] S512x256) (hφ : FKind.Formats .f32)
    (hacc : (0x00000000#32 : BitVec 32) = FKind.add.neutral .f32 hφ) (r : Fin 512) (c : Fin 256) :
    multiReduction .add [1] S512x256 src 0x00000000#32 h hφ hacc (ix2 r c) = ∑ kk : Fin 8, src (ix3 r kk c) := by
  refine (Ideal.multiReduction_add_single src _ h hφ hacc (ix2 r c)).trans ?_
  exact Finset.sum_congr rfl fun kk _ => congrArg src (funext fun a => Fin.ext (by
    match a with
    | ⟨0, _⟩ => rfl
    | ⟨1, _⟩ => rfl
    | ⟨2, _⟩ => rfl))

/-- The sum over all 32 neighbours of a [512,32] block, at row r. -/
theorem sumNeighbours_apply (src : FVec Ideal S512x32 .f32) (h : S512x32.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 32, src (ix2 r k) := by
  refine (Ideal.multiReduction_add_single src _ h hφ hacc (ix1 r)).trans ?_
  exact Finset.sum_congr rfl fun k _ => congrArg src (funext fun a => Fin.ext (by
    match a with
    | ⟨0, _⟩ => rfl
    | ⟨1, _⟩ => rfl))

/-- The maximum over all 32 neighbours of a [512,32] block, at row r: the fold of `max` from the starting value. -/
theorem maxNeighbours_apply (src : FVec Ideal S512x32 .f32) (h : S512x32.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = peak (Ideal.ofBits .f32 0xFF800000#32) (fun k => src (ix2 r k)) := by
  refine (Ideal.multiReduction_maximumf_single src _ h hφ hacc (ix1 r)).trans ?_
  unfold peak
  refine congrArg (Finset.fold max _ · _) (funext fun k => congrArg src (funext fun a => Fin.ext (by
    match a with
    | ⟨0, _⟩ => rfl
    | ⟨1, _⟩ => rfl)))

end Cert.KernelIdeal.Rows

end
-- ==== Proof.Payload.lean ====
/-
  What the kernel body stores, read at one row and channel of a block of 512 rows.

  The body is restated as a few named steps (the scores of one group of eight neighbours, the 32 scaled scores, the
  normalised weights, one group's contribution to the context, the stored value); the body's stored value IS their
  composition. Then each step is read at row `r`:
  the scaled scores are `Attn.score` of the row's query and neighbour vectors, the normalised weights are
  `Attn.share` of the scores, and the stored value at channel `c` is `Attn.row` — the four groups' contributions,
  added one after the other onto zero, are the one sum over all 32 neighbours (`Attn.sum_slots`).
-/
import proofs.«103626_j28819230556612_2_alg».proof.Proof.Gen.KernelIdeal.Skeleton
import proofs.«103626_j28819230556612_2_alg».proof.Proof.Layout

noncomputable section

namespace Cert.KernelIdeal.Rows

open Idealize.ShloMosaic Idealize.ShloMosaic.ValueIdx Cert.KernelIdeal Cert.KernelIdeal.Gen Cert.Attn

/-! ## The body's steps -/

/-- The inner products of each row's query with the eight neighbours of one group. -/
def groupScores (x0 : Vec Ideal S512x256 .f32) (g : Vec Ideal S512x8x256 .f32) : FVec Ideal S512x8 .f32 :=
  multiReduction .add [2] S512x8
    (mulf (broadcastTo S512x8x256 (shapeCast S512x1x256 (k0_pay2 x0) shapeCasts_S512x256_S512x1x256) broadcasts_S512x1x256_S512x8x256) g)
    0x00000000#32 reduces_S512x8x256_S512x8 (.inl rfl) rfl

/-- The 32 scaled scores of each row. -/
def scores (x0 : Vec Ideal S512x256 .f32) (g0 g1 g2 g3 : Vec Ideal S512x8x256 .f32) : FVec Ideal S512x32 .f32 :=
  mulf (concatenate S512x32 1 [⟨S512x8, groupScores x0 g0⟩, ⟨S512x8, groupScores x0 g1⟩, ⟨S512x8, groupScores x0 g2⟩, ⟨S512x8, groupScores x0 g3⟩]
      concatenates_S512x8_S512x8_S512x8_S512x8_S512x32_d1)
    (broadcast S512x32 (Scalar.ofBits .f32 0x3D800000#32))

/-- The unnormalised weights: the exponential of each score less its row's largest. -/
def weights (sc : FVec Ideal S512x32 .f32) : FVec Ideal S512x32 .f32 :=
  exp (subf sc (broadcastTo S512x32 (shapeCast S512x1
    (multiReduction .maximumf [1] S512 sc 0xFF800000#32 reduces_S512x32_S512 (.inl rfl) rfl) shapeCasts_S512_S512x1) broadcasts_S512x1_S512x32))

/-- The normalised weights: each weight over its row's sum of weights. -/
def shares (sc : FVec Ideal S512x32 .f32) : FVec Ideal S512x32 .f32 :=
  divf (weights sc) (broadcastTo S512x32 (shapeCast S512x1
    (multiReduction .add [1] S512 (weights sc) 0x00000000#32 reduces_S512x32_S512 (.inl rfl) rfl) shapeCasts_S512_S512x1) broadcasts_S512x1_S512x32)

/-- One group's contribution to the context: the sum over its eight neighbours of weight times neighbour vector. -/
def groupContext (w : FVec Ideal S512x32 .f32) (off : Nat) (hs : S512x32.Slices ![0, off] S512x8) (g : Vec Ideal S512x8x256 .f32) :
    FVec Ideal S512x256 .f32 :=
  multiReduction .add [1] S512x256
    (mulf (broadcastTo S512x8x256 (shapeCast S512x8x1 (extractStridedSlice S512x8 ![0, off] w hs) shapeCasts_S512x8_S512x8x1) broadcasts_S512x8x1_S512x8x256) g)
    0x00000000#32 reduces_S512x8x256_S512x256 (.inl rfl) rfl

/-- The stored value: the query block plus the four groups' contributions added in order onto the zero block. -/
def stored (x0 : Vec Ideal S512x256 .f32) (g0 g1 g2 g3 : Vec Ideal S512x8x256 .f32) : FVec Ideal S512x256 .f32 :=
  addf (k0_pay2 x0)
    (addf (addf (addf (addf (k0_pay4 (F := Ideal))
      (groupContext (shares (scores x0 g0 g1 g2 g3)) 0 slices_S512x32_o0_0_S512x8 g0))
      (groupContext (shares (scores x0 g0 g1 g2 g3)) 8 slices_S512x32_o0_8_S512x8 g1))
      (groupContext (shares (scores x0 g0 g1 g2 g3)) 16 slices_S512x32_o0_16_S512x8 g2))
      (groupContext (shares (scores x0 g0 g1 g2 g3)) 24 slices_S512x32_o0_24_S512x8 g3))

/-- The body's normalised weights are the steps composed. -/
theorem pay3_eq (x0 : Vec Ideal S512x256 .f32) (g0 g1 g2 g3 : Vec Ideal S512x8x256 .f32) :
    k0_pay3 x0 g0 g1 g2 g3 = shares (scores x0 g0 g1 g2 g3) := rfl

/-- The body's stored value is the steps composed. -/
theorem pay1_eq (x0 : Vec Ideal S512x256 .f32) (g0 g1 g2 g3 : Vec Ideal S512x8x256 .f32) :
    k0_pay1 (k0_pay2 x0) (k0_pay3 x0 g0 g1 g2 g3) (k0_pay4 (F := Ideal)) (k0_pay5 x0 g0 g1 g2 g3) g0 g1 g2 g3 = stored x0 g0 g1 g2 g3 := rfl

/-! ## The steps at a row -/

section AtRow

variable (x0 : Vec Ideal S512x256 .f32) (r : Fin 512) (Q : Fin 256 → EReal) (hq : ∀ c, x0 (ix2 r c) = Q c)

include hq in
/-- One group's scores at (r, kk): the inner product of the row's query with that neighbour. -/
theorem groupScores_apply (g : Vec Ideal S512x8x256 .f32) (G : Fin 8 → Fin 256 → EReal) (hg : ∀ kk c, g (ix3 r kk c) = G kk c) (kk : Fin 8) :
    groupScores x0 g (ix2 r kk) = ∑ c : Fin 256, Q c * G kk c := by
  unfold groupScores
  refine (sumChannels_apply _ _ _ _ r kk).trans (Finset.sum_congr rfl fun c _ => ?_)
  rw [mulf_apply, queryAlong_apply, hg]
  refine congrArg (· * G kk c) ?_
  unfold k0_pay2
  rw [shapeCast_self, hq]

variable (g0 g1 g2 g3 : Vec Ideal S512x8x256 .f32) (K : Fin 32 → Fin 256 → EReal)
  (h0 : ∀ kk c, g0 (ix3 r kk c) = K (slot 0 kk) c) (h1 : ∀ kk c, g1 (ix3 r kk c) = K (slot 1 kk) c)
  (h2 : ∀ kk c, g2 (ix3 r kk c) = K (slot 2 kk) c) (h3 : ∀ kk c, g3 (ix3 r kk c) = K (slot 3 kk) c)

include hq h0 h1 h2 h3 in
/-- The scaled scores at (r, k). -/
theorem scores_apply (k : Fin 32) : scores x0 g0 g1 g2 g3 (ix2 r k) = score scale Q K k := by
  obtain ⟨j, kk, rfl⟩ := exists_slot k
  unfold scores score
  rw [mulf_apply, broadcast_apply, sideBySide_apply]
  refine congrArg (· * scale) ?_
  match j with
  | ⟨0, _⟩ => exact groupScores_apply x0 r Q hq g0 _ h0 kk
  | ⟨1, _⟩ => exact groupScores_apply x0 r Q hq g1 _ h1 kk
  | ⟨2, _⟩ => exact groupScores_apply x0 r Q hq g2 _ h2 kk
  | ⟨3, _⟩ => exact groupScores_apply x0 r Q hq g3 _ h3 kk
  | ⟨n + 4, hn⟩ => exact absurd hn (by omega)

/-- The unnormalised weights at (r, k), for any block of scores whose row r is `f`. -/
theorem weights_apply (sc : FVec Ideal S512x32 .f32) (f : Fin 32 → EReal) (hf : ∀ k, sc (ix2 r k) = f k) (k : Fin 32) :
    weights sc (ix2 r k) = weight floor f k := by
  unfold weights weight
  show Ideal.exp (subf sc _ (ix2 r k)) = _
  rw [subf_apply, perRow_apply, hf]
  refine congrArg (fun p => Ideal.exp (f k - p)) ?_
  refine (maxNeighbours_apply sc _ _ _ r).trans ?_
  exact congrArg (peak floor) (funext hf)

/-- The normalised weights at (r, k). -/
theorem shares_apply (sc : FVec Ideal S512x32 .f32) (f : Fin 32 → EReal) (hf : ∀ k, sc (ix2 r k) = f k) (k : Fin 32) :
    shares sc (ix2 r k) = share floor f k := by
  unfold shares share total
  rw [divf_apply, perRow_apply, weights_apply r sc f hf]
  refine congrArg (Ideal.div (weight floor f k)) ?_
  exact (sumNeighbours_apply _ _ _ _ r).trans (Finset.sum_congr rfl fun k' _ => weights_apply r sc f hf k')

/-- One group's contribution at (r, c), for any block of weights whose row r is `a`. -/
theorem groupContext_apply (w : FVec Ideal S512x32 .f32) (a : Fin 32 → EReal) (ha : ∀ k, w (ix2 r k) = a k)
    (off : Nat) (hs : S512x32.Slices ![0, off] S512x8) (j : Fin 4) (hoff : off = 8 * j.val)
    (g : Vec Ideal S512x8x256 .f32) (hg : ∀ kk c, g (ix3 r kk c) = K (slot j kk) c) (c : Fin 256) :
    groupContext w off hs g (ix2 r c) = ∑ kk : Fin 8, a (slot j kk) * K (slot j kk) c := by
  unfold groupContext
  refine (sumGroup_apply _ _ _ _ r c).trans (Finset.sum_congr rfl fun kk _ => ?_)
  rw [mulf_apply, perNeighbour_apply, group_apply w off hs r j kk hoff, ha, hg]

include hq h0 h1 h2 h3 in
/-- THE STORED VALUE at (r, c) is the attention row of the row's query and neighbour vectors, at channel c. -/
theorem stored_apply (c : Fin 256) : stored x0 g0 g1 g2 g3 (ix2 r c) = row scale floor Q K c := by
  have ha : ∀ k, shares (scores x0 g0 g1 g2 g3) (ix2 r k) = share floor (score scale Q K) k :=
    shares_apply r _ _ (scores_apply x0 r Q hq g0 g1 g2 g3 K h0 h1 h2 h3)
  unfold stored row
  rw [addf_apply, addf_apply, addf_apply, addf_apply, addf_apply,
    groupContext_apply r K _ _ ha 0 _ 0 rfl g0 h0, groupContext_apply r K _ _ ha 8 _ 1 rfl g1 h1,
    groupContext_apply r K _ _ ha 16 _ 2 rfl g2 h2, groupContext_apply r K _ _ ha 24 _ 3 rfl g3 h3,
    sum_slots fun k => share floor (score scale Q K) k * K k c]
  have e0 : (k0_pay4 (F := Ideal)) (ix2 r c) = 0 := Ideal.ofBits_zero_f32
  have eq : k0_pay2 x0 (ix2 r c) = Q c := by unfold k0_pay2; rw [shapeCast_self, hq]
  rw [e0, eq]

end AtRow

end Cert.KernelIdeal.Rows

end
-- ==== Proof.Blocks.lean ====
/-
  From the body's stored blocks to the kernel's result array.

  Grid point `t` of the 64 works on rows `512 t … 512 t + 511`: its query block is those rows of the query array
  (which the program first views as [32768,256]), its neighbour block those rows of the neighbour array, and it writes
  back those rows of the [32768,256] result. By the previous module the block it writes holds, at (r, c), channel `c`
  of the attention row built from row `512 t + r` of the two arguments. The 64 blocks tile the result, so after the
  run the [32768,256] result is that function of the arguments at every index; the program's last step views it as
  [32768,1,256], which is `Attn.whole`.
-/
import proofs.«103626_j28819230556612_2_alg».proof.Proof.Gen.KernelIdeal.Frame
import proofs.«103626_j28819230556612_2_alg».proof.Proof.Payload
import Idealize.ShloMosaic.Lib.Pipeline.Value
import Idealize.ShloMosaic.Lib.StableHlo.Run
import Idealize.ShloMosaic.Lib.Tactic

noncomputable section

namespace Cert.KernelIdeal.Rows

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

theorem hz2 : (![0, 0] : Fin 2 → Nat) = fun _ => 0 := funext fun a => by fin_cases a <;> rfl

/-- A load of group `j` (neighbours from `off = 8 j`) out of a neighbour block: at (r, kk, c) it is the block at (r, 8 j + kk, c). -/
theorem loadGroup_apply (x1 : Vec Ideal S512x32x256 .f32) (off : Nat) (inb : ∀ a, (![0, off, 0] : Fin 3 → Nat) a + S512x8x256.size a ≤ S512x32x256.size a)
    (j : Fin 4) (hoff : off = 8 * j.val) (r : Fin 512) (kk : Fin 8) (c : Fin 256) :
    View.ld x1 (Rect.unit (s := S512x32x256) ![0, off, 0] S512x8x256.size inb) (ix3 r kk c) = x1 (ix3 r (slot j kk) c) := by
  show x1 _ = x1 _
  refine congrArg x1 (funext fun a => Fin.ext ?_)
  match a with
  | ⟨0, _⟩ => show 0 + 1 * r.val = r.val; omega
  | ⟨1, _⟩ => show off + 1 * kk.val = 8 * j.val + kk.val; omega
  | ⟨2, _⟩ => show 0 + 1 * c.val = c.val; omega

/-- The stored block at (r, c) when row `r` of the two blocks is row `n` of the two arrays. -/
theorem stored_rows (x0 : Vec Ideal S512x256 .f32) (x1 : Vec Ideal S512x32x256 .f32)
    (q : S32768x1x256.Idx → EReal) (key : S32768x32x256.Idx → EReal) (r : Fin 512) (n : Fin 32768)
    (hx0 : ∀ c', x0 (ix2 r c') = q (ix3 n (0 : Fin 1) c')) (hx1 : ∀ k c', x1 (ix3 r k c') = key (ix3 n k c')) (c' : Fin 256) :
    stored x0 (View.ld x1 r0_1) (View.ld x1 r0_2) (View.ld x1 r0_3) (View.ld x1 r0_4) (ix2 r c')
      = whole scale floor q key (ix3 n (0 : Fin 1) c') := by
  rw [whole_apply]
  exact stored_apply x0 r (fun c'' => q (ix3 n (0 : Fin 1) c'')) hx0 _ _ _ _ (fun k c'' => key (ix3 n k c''))
    (fun kk c'' => (loadGroup_apply x1 0 _ 0 rfl r kk c'').trans (hx1 _ _))
    (fun kk c'' => (loadGroup_apply x1 8 _ 1 rfl r kk c'').trans (hx1 _ _))
    (fun kk c'' => (loadGroup_apply x1 16 _ 2 rfl r kk c'').trans (hx1 _ _))
    (fun kk c'' => (loadGroup_apply x1 24 _ 3 rfl r kk c'').trans (hx1 _ _)) c'

/-! ## The blocks of a grid point -/

/-- The three windows' block indices at point `t`: block `t` along the rows, block 0 along every other axis. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The query array as the region finds it: the [32768,1,256] argument viewed as [32768,256]. -/
theorem V_query (c : Dev nD) :
    (V m c main_v0 : S32768x256.Idx → EReal)
      = shapeCast S32768x256 (m ((c : Thread nD τ).loc main_arg0)) shapeCasts_S32768x1x256_S32768x256 := by
  show StableHlo.after hostOps0 (fun b => m (c, b)) (Proc.devRef .tc main_v0) = _
  after_results
  rfl

/-- Row `r` of point `t`'s query block is row `512 t + r` of the query argument. -/
theorem queryBlock_apply (c : Dev nD) (t : Fin cfg0.N) (r : Fin 512) (c' : Fin 256) (n : Fin 32768) (hn : n.val = 512 * t.val + r.val) :
    (iblk m c 0 t : Vec Ideal S512x256 .f32) (ix2 r c') = m ((c : Thread nD τ).loc main_arg0) (ix3 n (0 : Fin 1) c') := by
  obtain ⟨e0, e1, -⟩ := idx_facts t
  unfold iblk
  rw [View.read_apply]
  show V m c main_v0 _ = _
  rw [V_query]
  refine shapeCast_apply _ _ _ (ix3 n (0 : Fin 1) c') ?_
  rw [Shape.rowMajor_val_two, Shape.rowMajor_val_three]
  show (n.val * 1 + 0) * 256 + c'.val = (win0_0.index t (0 : Fin 2) * 512 + 1 * r.val) * 256 + (win0_0.index t (1 : Fin 2) * 256 + 1 * c'.val)
  rw [e0, e1, hn]
  omega

/-- Row `r` of point `t`'s neighbour block is row `512 t + r` of the neighbour argument. -/
theorem keyBlock_apply (c : Dev nD) (t : Fin cfg0.N) (r : Fin 512) (k : Fin 32) (c' : Fin 256) (n : Fin 32768) (hn : n.val = 512 * t.val + r.val) :
    (iblk m c 1 t : Vec Ideal S512x32x256 .f32) (ix3 r k c') = m ((c : Thread nD τ).loc main_arg1) (ix3 n k c') := by
  obtain ⟨-, -, e0, e1, e2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 512 + 1 * r.val = n.val; rw [e0, hn]; omega
  | ⟨1, _⟩ => show win0_1.index t (1 : Fin 3) * 32 + 1 * k.val = k.val; rw [e1]; omega
  | ⟨2, _⟩ => show win0_1.index t (2 : Fin 3) * 256 + 1 * c'.val = c'.val; rw [e2]; omega

/-! ## The [32768,256] result -/

/-- The [32768,256] result as a function of the two arguments: entry (n, c) is `Attn.whole` at (n, 0, c). -/
def rows2d (q : S32768x1x256.Idx → EReal) (key : S32768x32x256.Idx → EReal) : S32768x256.Idx → EReal :=
  fun i => whole scale floor q key (ix3 (⟨(i 0).val, (i 0).isLt⟩ : Fin 32768) (0 : Fin 1) (⟨(i 1).val, (i 1).isLt⟩ : Fin 256))

/-- What point `t` stores at `y` is the result at the array index `i` that `y` sits at. -/
theorem stored_at (c : Dev nD) (t : Fin cfg0.N) (y : S512x256.Idx) (i : S32768x256.Idx)
    (hi0 : (i 0).val = 512 * t.val + (y 0).val) (hi1 : (i 1).val = (y 1).val) :
    stored (iblk m c 0 t) (View.ld (iblk m c 1 t) r0_1) (View.ld (iblk m c 1 t) r0_2) (View.ld (iblk m c 1 t) r0_3) (View.ld (iblk m c 1 t) r0_4) y
      = rows2d (m ((c : Thread nD τ).loc main_arg0)) (m ((c : Thread nD τ).loc main_arg1)) i := by
  obtain ⟨r, c', rfl⟩ : ∃ (r : Fin 512) (c' : Fin 256), y = ix2 r c' := ⟨y 0, y 1, eq_ix2 y⟩
  unfold rows2d
  refine (stored_rows (iblk m c 0 t) (iblk m c 1 t) (m ((c : Thread nD τ).loc main_arg0)) (m ((c : Thread nD τ).loc main_arg1)) r
    (⟨(i 0).val, (i 0).isLt⟩ : Fin 32768) (fun c'' => queryBlock_apply m c t r c'' _ hi0) (fun k c'' => keyBlock_apply m c t r k c'' _ hi0) c').trans ?_
  exact congrArg (fun z : Fin 256 => whole scale floor (m ((c : Thread nD τ).loc main_arg0)) (m ((c : Thread nD τ).loc main_arg1))
    (ix3 (⟨(i 0).val, (i 0).isLt⟩ : Fin 32768) (0 : Fin 1) z)) (Fin.ext hi1.symm)

/-- WHAT POINT `t` WRITES BACK is block `t` of the result function. -/
theorem flushed_eq (c : Dev nD) (t : Fin cfg0.N) :
    (dats m 0 c).flushed 2 t
      = ((cfg0.win 2).blk t).view.read (Elt Ideal) (rows2d (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz2]
  simp only [View.ld_unit_zero (S := S512x256) hz2]
  rw [pay1_eq]
  obtain ⟨-, -, -, -, -, e0, e1⟩ := idx_facts t
  funext y
  exact stored_at m c t y _
    (by show win0_2.index t (0 : Fin 2) * 512 + 1 * (y 0).val = 512 * t.val + (y 0).val; rw [e0]; omega)
    (by show win0_2.index t (1 : Fin 2) * 256 + 1 * (y 1).val = (y 1).val; rw [e1]; omega)

/-- An index of the result is in point `t`'s block iff each coordinate is in the block's range. -/
theorem mem_blk (t : Fin cfg0.N) (i : S32768x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v1).slice (win0_2.rect t)).set ↔ _
  rw [View.set_slice_whole, Rect.mem_set_unit]
  exact Iff.rfl

/-- Row `n` of the result is in the block of point `n / 512`. -/
theorem cover (i : S32768x256.Idx) : ∃ t : Fin cfg0.N, (cfg0.win 2).flush t = true ∧ i ∈ ((cfg0.win 2).blk t).view.set := by
  have hi0 : (i 0).val < 32768 := (i 0).isLt
  have hi1 : (i 1).val < 256 := (i 1).isLt
  have hN : grid0.N = 64 := N_0
  obtain ⟨t, ht⟩ : ∃ t : Fin cfg0.N, t.val = (i 0).val / 512 := ⟨⟨(i 0).val / 512, by show (i 0).val / 512 < grid0.N; rw [hN]; omega⟩, rfl⟩
  obtain ⟨-, -, -, -, -, e0, e1⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 256 ≤ (i 1).val ∧ (i 1).val < win0_2.index t (1 : Fin 2) * 256 + 256
    rw [e1]; omega

/-- THE [32768,256] RESULT after the run is the result function of the two arguments. -/
theorem final (c : Dev nD) :
    (dats m 0 c).arrAt 2 cfg0.N = rows2d (m ((c : Thread nD τ).loc main_arg0)) (m ((c : Thread nD τ).loc main_arg1)) :=
  (dats m 0 c).arrAt_eq_of_cover 2 (rows2d (m ((c : Thread nD τ).loc main_arg0)) (m ((c : Thread nD τ).loc main_arg1)))
    (fun t _ => flushed_eq m c t) cover

/-! ## The program's last step, and the run -/

/-- The program's result: the [32768,256] result viewed as [32768,1,256] is `Attn.whole` of the two arguments. -/
theorem tail_eq (c : Dev nD) :
    Pipeline.afterTail₀ cfgs (dats m) 0 (V0 m) [hostOps1] c main_v2
      = whole scale floor (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rows2d (m ((c : Thread nD τ).loc main_arg0)) (m ((c : Thread nD τ).loc main_arg1)) :=
    (Pipeline.withArrays_arr spec0 launch0.win.arr_inj c _ _ 2).trans (final m c)
  rw [hw]
  funext i
  obtain ⟨n, c', rfl⟩ := exists_ix3 i
  refine (shapeCast_apply (rows2d (m ((c : Thread nD τ).loc main_arg0)) (m ((c : Thread nD τ).loc main_arg1)))
    shapeCasts_S32768x256_S32768x1x256 (ix3 n (0 : Fin 1) c') (ix2 n c') ?_).trans rfl
  rw [Shape.rowMajor_val_two, Shape.rowMajor_val_three]
  show n.val * 256 + c'.val = (n.val * 1 + 0) * 256 + c'.val
  omega

/-- THE KERNEL'S RUN, read: every weakly fair execution terminates with the result at `Attn.whole` of the two
    arguments, and the arguments unchanged. -/
theorem run : θ_run defs (onTc (τ := τ) (main (F := Ideal))) ⟨m, fun _ => 0, ρ⟩ fun r => ∀ c : Dev nD,
      r.2.mem ((c.tc : Thread nD τ).loc main_v2)
        = whole scale floor (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Rows

end
-- ==== Proof.Ref.lean ====
/-
  The reference's result, read one operation at a time, is the attention row of `Attn.whole`.

  The reference works on [32768,1,·] arrays; entry (n, 0, ·) of every intermediate depends on row `n` of the two
  arguments only. In order: the scaled scores are `Attn.score`; the maximum over the 32 neighbours, folded from -∞ and
  then joined once more with -∞, is `Attn.peak` (`Attn.max_peak`); the exponentials are `Attn.weight`; their sum,
  started from the zero word, is `Attn.total`; the quotient is `Attn.share`; and the second product with the
  neighbour array plus the query is `Attn.row`.
-/
import proofs.«103626_j28819230556612_2_alg».proof.Proof.Gen.ReferenceIdeal.Read
import proofs.«103626_j28819230556612_2_alg».proof.Proof.Row

noncomputable section

namespace Cert.ReferenceIdeal.Rows

open Idealize.ShloMosaic Idealize.ShloMosaic.ValueIdx Cert.ReferenceIdeal Cert.ReferenceIdeal.Read Cert.Attn

/-- The host's maximum over the 32 neighbours, at (n, 0): the fold of `max` from the starting value over row n. -/
theorem hostMax_apply (y : (⟨S32768x1x32, .f32⟩ : BufTy).Contents (Elt Ideal)) (init : (⟨S_, .f32⟩ : BufTy).Contents (Elt Ideal))
    (h' : S32768x1x32.ReducesTo [2] S32768x1) (hu : 0 < S_.numel) (n : Fin 32768) :
    Host.reduce (FloatOps.maximumf (F := Ideal) (φ := .f32)) y init h' hu (ix2 n (0 : Fin 1))
      = peak (init (Shape.Idx.first hu)) (fun k => y (ix3 n (0 : Fin 1) k)) := by
  refine (Host.reduce_eq_fold_single _ y init h' (by decide) hu (ix2 n (0 : Fin 1))).trans ?_
  unfold peak
  refine congrArg (Finset.fold max _ · _) (funext fun k => congrArg y (funext fun a => Fin.ext (by
    match a with
    | ⟨0, _⟩ => rfl
    | ⟨1, _⟩ => rfl
    | ⟨2, _⟩ => rfl)))

/-! ## Where each operation reads its operands, at (n, 0, ·) -/

section Indices
variable (n : Fin 32768)

theorem lidx0 (k : Fin 32) (c : Fin 256) : lidx_main_v0 (ix3 n (0 : Fin 1) k) c = ix3 n (0 : Fin 1) c :=
  funext fun a => by match a with | ⟨0, _⟩ => rfl | ⟨1, _⟩ => rfl | ⟨2, _⟩ => rfl
theorem ridx0 (k : Fin 32) (c : Fin 256) : ridx_main_v0 (ix3 n (0 : Fin 1) k) c = ix3 n k c :=
  funext fun a => by match a with | ⟨0, _⟩ => rfl | ⟨1, _⟩ => rfl | ⟨2, _⟩ => rfl
theorem idx6 : idx_main_v6 (ix3 n (0 : Fin 1) (0 : Fin 1)) = ix2 n (0 : Fin 1) :=
  funext fun a => by match a with | ⟨0, _⟩ => rfl | ⟨1, _⟩ => rfl
theorem idx7 (k : Fin 32) : idx_main_v7 (ix3 n (0 : Fin 1) k) = ix3 n (0 : Fin 1) (0 : Fin 1) :=
  funext fun a => by match a with | ⟨0, _⟩ => rfl | ⟨1, _⟩ => rfl | ⟨2, _⟩ => rfl
theorem idx10 (k : Fin 32) : idx_main_v10 (ix2 n (0 : Fin 1)) k = ix3 n (0 : Fin 1) k :=
  funext fun a => by match a with | ⟨0, _⟩ => rfl | ⟨1, _⟩ => rfl | ⟨2, _⟩ => rfl
theorem idx11 : idx_main_v11 (ix3 n (0 : Fin 1) (0 : Fin 1)) = ix2 n (0 : Fin 1) :=
  funext fun a => by match a with | ⟨0, _⟩ => rfl | ⟨1, _⟩ => rfl
theorem idx12 (k : Fin 32) : idx_main_v12 (ix3 n (0 : Fin 1) k) = ix3 n (0 : Fin 1) (0 : Fin 1) :=
  funext fun a => by match a with | ⟨0, _⟩ => rfl | ⟨1, _⟩ => rfl | ⟨2, _⟩ => rfl
theorem lidx14 (c : Fin 256) (k : Fin 32) : lidx_main_v14 (ix3 n (0 : Fin 1) c) k = ix3 n (0 : Fin 1) k :=
  funext fun a => by match a with | ⟨0, _⟩ => rfl | ⟨1, _⟩ => rfl | ⟨2, _⟩ => rfl
theorem ridx14 (c : Fin 256) (k : Fin 32) : ridx_main_v14 (ix3 n (0 : Fin 1) c) k = ix3 n k c :=
  funext fun a => by match a with | ⟨0, _⟩ => rfl | ⟨1, _⟩ => rfl | ⟨2, _⟩ => rfl

end Indices

/-! ## The stages at row n -/

section Stages

variable (x0 : (⟨S32768x1x256, .f32⟩ : BufTy).Contents (Elt Ideal)) (x1 : (⟨S32768x32x256, .f32⟩ : BufTy).Contents (Elt Ideal)) (n : Fin 32768)

/-- Row n's query and neighbour vectors. -/
abbrev Qn : Fin 256 → EReal := fun c => x0 (ix3 n (0 : Fin 1) c)
abbrev Kn : Fin 32 → Fin 256 → EReal := fun k c => x1 (ix3 n k c)

theorem v2_at (k : Fin 32) : val_main_v2 (F := Ideal) x0 x1 (ix3 n (0 : Fin 1) k) = score scale (Qn x0 n) (Kn x1 n) k := by
  rw [val_main_v2_apply, val_main_v0_apply, val_main_v1_apply, val_main_cst_apply]
  unfold score
  refine congrArg (· * scale) (Finset.sum_congr rfl fun c _ => ?_)
  rw [lidx0, ridx0]

theorem v5_at : val_main_v5 (F := Ideal) x0 x1 (ix2 n (0 : Fin 1)) = peak floor (score scale (Qn x0 n) (Kn x1 n)) := by
  rw [val_main_v5_apply, val_main_v4_apply, val_main_cst_1_apply]
  unfold val_main_v3
  rw [hostMax_apply]
  show max floor (peak floor _) = _
  rw [show (fun k => val_main_v2 (F := Ideal) x0 x1 (ix3 n (0 : Fin 1) k)) = score scale (Qn x0 n) (Kn x1 n) from funext (v2_at x0 x1 n)]
  exact max_peak _ _

theorem v9_at (k : Fin 32) : val_main_v9 (F := Ideal) x0 x1 (ix3 n (0 : Fin 1) k) = weight floor (score scale (Qn x0 n) (Kn x1 n)) k := by
  rw [val_main_v9_apply, val_main_v8_apply, val_main_v7_apply, idx7, val_main_v6_apply, idx6, v5_at, v2_at]
  rfl

theorem v10_at : val_main_v10 (F := Ideal) x0 x1 (ix2 n (0 : Fin 1)) = total floor (score scale (Qn x0 n) (Kn x1 n)) := by
  rw [val_main_v10_apply, val_main_cst_2_apply]
  show Ideal.ofBits .f32 0x00000000#32 + _ = _
  rw [Ideal.ofBits_zero_f32, zero_add]
  unfold total
  exact Finset.sum_congr rfl fun k _ => by rw [idx10, v9_at]

theorem v13_at (k : Fin 32) : val_main_v13 (F := Ideal) x0 x1 (ix3 n (0 : Fin 1) k) = share floor (score scale (Qn x0 n) (Kn x1 n)) k := by
  rw [val_main_v13_apply, val_main_v12_apply, idx12, val_main_v11_apply, idx11, v10_at, v9_at]
  rfl

/-- THE REFERENCE'S RESULT is `Attn.whole` of its two arguments. -/
theorem result_eq : val_main_v15 (F := Ideal) x0 x1 = whole scale floor x0 x1 := by
  funext i
  obtain ⟨n, c, rfl⟩ := exists_ix3 i
  rw [whole_apply, val_main_v15_apply, val_main_v14_apply]
  unfold row
  refine congrArg (x0 (ix3 n (0 : Fin 1) c) + ·) (Finset.sum_congr rfl fun k _ => ?_)
  rw [lidx14, ridx14, v13_at]

end Stages

end Cert.ReferenceIdeal.Rows

end
-- ==== Proof.lean ====
/-
  Single-query attention over 32 neighbours: the kernel equals its jnp reference on the extended reals.

  For each of the 32768 rows both programs compute, from the row's query vector `Q` (256 channels) and its 32
  neighbour vectors `K k`: the scores `(∑ c, Q c · K k c) · 1/16`, their maximum (from -∞), the weights
  `exp (score k - maximum)`, the weights divided by their sum, and `Q c + ∑ k, weight k · K k c` (`Attn.row`,
  Proof/Row.lean). The kernel takes the neighbours in four groups of eight — four partial score blocks put side by
  side, and four partial sums added in order onto zero — where the reference has one contraction each; on the
  extended reals a sum may be regrouped freely (addition is commutative and associative there, infinities included),
  so no finiteness of the inputs is used. The reference joins its maximum with -∞ once more, which changes nothing.

  Proof/Layout.lean and Proof/Payload.lean read the kernel body's stored value at a row; Proof/Blocks.lean carries
  that through the 64 row blocks of the grid and the two reshapes around the call to the kernel's result array;
  Proof/Ref.lean reads the reference one operation at a time. Here the two runs are put side by side. The ideal
  pass rewrote nothing, so `preserves` has nothing to prove; the three frames are the generated ones (the reference's
  is its generated run with the result dropped).
-/
import proofs.«103626_j28819230556612_2_alg».proof.Defs
import proofs.«103626_j28819230556612_2_alg».proof.Proof.Gen.Kernel
import proofs.«103626_j28819230556612_2_alg».proof.Proof.Gen.Kernel.Skeleton
import proofs.«103626_j28819230556612_2_alg».proof.Proof.Gen.Kernel.Launch
import proofs.«103626_j28819230556612_2_alg».proof.Proof.Gen.Kernel.Points
import proofs.«103626_j28819230556612_2_alg».proof.Proof.Gen.Kernel.Frame
import proofs.«103626_j28819230556612_2_alg».proof.Proof.Gen.KernelIdeal
import proofs.«103626_j28819230556612_2_alg».proof.Proof.Gen.KernelIdeal.Skeleton
import proofs.«103626_j28819230556612_2_alg».proof.Proof.Gen.KernelIdeal.Launch
import proofs.«103626_j28819230556612_2_alg».proof.Proof.Gen.KernelIdeal.Points
import proofs.«103626_j28819230556612_2_alg».proof.Proof.Gen.KernelIdeal.Frame
import proofs.«103626_j28819230556612_2_alg».proof.Proof.Gen.ReferenceIdeal
import proofs.«103626_j28819230556612_2_alg».proof.Proof.Gen.ReferenceIdeal.Run
import proofs.«103626_j28819230556612_2_alg».proof.Proof.Gen.ReferenceIdeal.Read
import proofs.«103626_j28819230556612_2_alg».proof.Proof.Gen.Pre_finite_inputs
import proofs.«103626_j28819230556612_2_alg».proof.Proof.Blocks
import proofs.«103626_j28819230556612_2_alg».proof.Proof.Ref
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the two arguments both programs end with the result array at `Attn.whole` of the
    arguments: the kernel by its run read through the grid's blocks, the reference by its run read operation by operation. -/
theorem algebraic : Cert.algebraic_KernelIdeal_ReferenceIdeal := by
  intro m ρ m' ρ' _ hagree
  refine ⟨fun c => Cert.Attn.whole Cert.Attn.scale Cert.Attn.floor
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Cert.ReferenceIdeal.Rows.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
